-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x32x10000 : Shape := ⟨3, ![512, 32, 10000]⟩
abbrev S32x64 : Shape := ⟨2, ![32, 64]⟩
abbrev S_ : Shape := ⟨0, ![]⟩

class Facts : Prop where
  bcast_S_S512x32x10000 : S_.BroadcastsInDim S512x32x10000 (![] : Fin 0 → Fin S512x32x10000.rank)
  reducesTo_S512x32x10000_S_d0_1_2 : S512x32x10000.ReducesTo [0, 1, 2] S_
  h_S_ : 0 < S_.numel

variable [Facts]

def fn {F : FTy → Type} [FloatOps F] (main_arg0 : FVec F S512x32x10000 .f32) (main_arg1 : IVec S32x64 32) : IVec S_ 1 :=
  let main_v0 : FVec F S512x32x10000 .f32 := Host.absf main_arg0
  let main_cst : FVec F S_ .f32 := constant S_ .f32 0x7F800000#32
  let main_v1 : FVec F S512x32x10000 .f32 := broadcastInDim S512x32x10000 ![] bcast_S_S512x32x10000 main_cst
  let main_v2 : IVec S512x32x10000 1 := cmpf .olt main_v0 main_v1
  let main_c : IVec S_ 1 := constantI S_ 1 1#1
  let main_v3 : IVec S_ 1 := (fun x v => Host.reduce IntOp.andi x v reducesTo_S512x32x10000_S_d0_1_2 h_S_) main_v2 main_c
  main_v3
-- ==== Kernel.lean ====
abbrev S512x32x10000 : Shape := ⟨3, ![512, 32, 10000]⟩
abbrev S32x64 : Shape := ⟨2, ![32, 64]⟩
abbrev S_ : Shape := ⟨0, ![]⟩
abbrev S32 : Shape := ⟨1, ![32]⟩
abbrev S32x1 : Shape := ⟨2, ![32, 1]⟩
abbrev S32x10000 : Shape := ⟨2, ![32, 10000]⟩
abbrev S32x64x1 : Shape := ⟨3, ![32, 64, 1]⟩
abbrev S32x64x2 : Shape := ⟨3, ![32, 64, 2]⟩
abbrev S1 : Shape := ⟨1, ![1]⟩
abbrev S1x1 : Shape := ⟨2, ![1, 1]⟩
abbrev S8x32x10000 : Shape := ⟨3, ![8, 32, 10000]⟩

abbrev nBuf : Space → Nat
  | .hbm => 43
  | .vmem => 5
  | .smem => 0
  | _ => 0

abbrev bufTy : (tb : Table) → Fin (tcTables nBuf tb) → BufTy
  | .hbm, ⟨0, _⟩ => ⟨S512x32x10000, .f32⟩
  | .hbm, ⟨1, _⟩ => ⟨S32x64, .i32⟩
  | .hbm, ⟨2, _⟩ => ⟨S_, .i32⟩
  | .hbm, ⟨3, _⟩ => ⟨S32x64, .i32⟩
  | .hbm, ⟨4, _⟩ => ⟨S32x64, .i1⟩
  | .hbm, ⟨5, _⟩ => ⟨S32, .i32⟩
  | .hbm, ⟨6, _⟩ => ⟨S32x1, .i32⟩
  | .hbm, ⟨7, _⟩ => ⟨S_, .f32⟩
  | .hbm, ⟨8, _⟩ => ⟨S32x10000, .f32⟩
  | .hbm, ⟨9, _⟩ => ⟨S32x64, .f32⟩
  | .hbm, ⟨10, _⟩ => ⟨S_, .i32⟩
  | .hbm, ⟨11, _⟩ => ⟨S32x1, .i32⟩
  | .hbm, ⟨12, _⟩ => ⟨S32x1, .i1⟩
  | .hbm, ⟨13, _⟩ => ⟨S_, .i32⟩
  | .hbm, ⟨14, _⟩ => ⟨S32x1, .i32⟩
  | .hbm, ⟨15, _⟩ => ⟨S32x1, .i32⟩
  | .hbm, ⟨16, _⟩ => ⟨S32x1, .i32⟩
  | .hbm, ⟨17, _⟩ => ⟨S_, .i32⟩
  | .hbm, ⟨18, _⟩ => ⟨S32x64, .i32⟩
  | .hbm, ⟨19, _⟩ => ⟨S32x64, .i1⟩
  | .hbm, ⟨20, _⟩ => ⟨S_, .i32⟩
  | .hbm, ⟨21, _⟩ => ⟨S32x64, .i32⟩
  | .hbm, ⟨22, _⟩ => ⟨S32x64, .i32⟩
  | .hbm, ⟨23, _⟩ => ⟨S32x64, .i32⟩
  | .hbm, ⟨24, _⟩ => ⟨S32x64, .i32⟩
  | .hbm, ⟨25, _⟩ => ⟨S32x64x1, .i32⟩
  | .hbm, ⟨26, _⟩ => ⟨S32x64x1, .i32⟩
  | .hbm, ⟨27, _⟩ => ⟨S32x64x2, .i32⟩
  | .hbm, ⟨28, _⟩ => ⟨S32x10000, .f32⟩
  | .hbm, ⟨29, _⟩ => ⟨S32x64, .i32⟩
  | .hbm, ⟨30, _⟩ => ⟨S_, .i32⟩
  | .hbm, ⟨31, _⟩ => ⟨S32, .i32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .i32⟩
  | .hbm, ⟨37, _⟩ => ⟨S1, .i32⟩
  | .hbm, ⟨38, _⟩ => ⟨S32x10000, .f32⟩
  | .hbm, ⟨39, _⟩ => ⟨S1x1, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S8x32x10000, .f32⟩
  | .local _ .vmem, ⟨1, _⟩ => ⟨S8x32x10000, .f32⟩
  | .local _ .vmem, ⟨2, _⟩ => ⟨S32x10000, .f32⟩
  | .local _ .vmem, ⟨3, _⟩ => ⟨S1x1, .f32⟩
  | .local _ .vmem, ⟨4, _⟩ => ⟨S32x10000, .f32⟩
  | _, _ => ⟨S512x32x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_c_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v10 : BitVec 1 := Scalar.cmpi .eq arg0 c63_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x32x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  bcast_S_S32x64 : S_.BroadcastsInDim S32x64 (![] : Fin 0 → Fin S32x64.rank)
  bcast_S32_S32x1_0 : S32.BroadcastsInDim S32x1 (![0] : Fin 1 → Fin S32x1.rank)
  bcast_S_S32x10000 : S_.BroadcastsInDim S32x10000 (![] : Fin 0 → Fin S32x10000.rank)
  bcast_S_S32x1 : S_.BroadcastsInDim S32x1 (![] : Fin 0 → Fin S32x1.rank)
  bcast_S32x1_S32x64_0_1 : S32x1.BroadcastsInDim S32x64 (![0, 1] : Fin 2 → Fin S32x64.rank)
  bcast_S32x64_S32x64x1_0_1 : S32x64.BroadcastsInDim S32x64x1 (![0, 1] : Fin 2 → Fin S32x64x1.rank)
  concatenates_S32x64x1_S32x64x1_S32x64x2_d2 : Shape.Concatenates [S32x64x1, S32x64x1] S32x64x2 2
  natLt_1_32 : 1 < 32
  reducesTo_S32x64_S32_d1 : S32x64.ReducesTo [1] S32
  h_S_ : 0 < S_.numel
  bcast_S_S32 : S_.BroadcastsInDim S32 (![] : Fin 0 → Fin S32.rank)
  bcast_S_S1 : S_.BroadcastsInDim S1 (![] : Fin 0 → Fin S1.rank)
  inb_S32x10000_S32x10000_0_0 : ∀ a, (![0, 0] : Fin 2 → Nat) a + S32x10000.size a ≤ S32x10000.size a
  h_S32x10000 : 0 < S32x10000.numel
  shapeCasts_S32x10000_S32x10000 : S32x10000.ShapeCasts S32x10000
  inb_S8x32x10000_S8x32x10000_0_0_0 : ∀ a, (![0, 0, 0] : Fin 3 → Nat) a + S8x32x10000.size a ≤ S8x32x10000.size a
  h_S8x32x10000 : 0 < S8x32x10000.numel
  reduces_S8x32x10000_S32x10000 : S8x32x10000.Reduces [0] S32x10000
  reduces_S32x10000_S32 : S32x10000.Reduces [1] S32
  shapeCasts_S32_S32x1 : S32.ShapeCasts S32x1
  reduces_S32x1_S1 : S32x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  scatter_S32x10000_S32x64x2_S32x64_n_01_01_2_wf : ScatterDims.WF S32x10000 S32x64x2 S32x64 [] [0, 1] [0, 1] 2
  scatter_S32x10000_S1_S32_0_1_1_0_wf : ScatterDims.WF S32x10000 S1 S32 [0] [1] [1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x10000.size a ≤ S512x32x10000.size a
  hwx0_0 : ∀ i : grid0.Coords, EltTy.bits .f32 = 32 ∨ (Rect.block (s := S512x32x10000) S8x32x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x10000.size a ≤ S32x10000.size a
  hwx0_1 : ∀ i : grid0.Coords, EltTy.bits .f32 = 32 ∨ (Rect.block (s := S32x10000) S32x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def scatter_S32x10000_S32x64x2_S32x64_n_01_01_2 : ScatterDims S32x10000 S32x64x2 S32x64 where
  updateWindowDims := []
  insertedWindowDims := [0, 1]
  scatterDimsToOperandDims := [0, 1]
  indexVectorDim := 2
  wf := scatter_S32x10000_S32x64x2_S32x64_n_01_01_2_wf
def scatter_S32x10000_S1_S32_0_1_1_0 : ScatterDims S32x10000 S1 S32 where
  updateWindowDims := [0]
  insertedWindowDims := [1]
  scatterDimsToOperandDims := [1]
  indexVectorDim := 0
  wf := scatter_S32x10000_S1_S32_0_1_1_0_wf

abbrev win0_0 : Pipeline.Window sig grid0 :=
  Pipeline.Window.ofSpec (Memref.whole main_arg0) S8x32x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S32x10000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S512x32x10000 : Shape := ⟨3, ![512, 32, 10000]⟩
abbrev S32x64 : Shape := ⟨2, ![32, 64]⟩
abbrev S32x512x10000 : Shape := ⟨3, ![32, 512, 10000]⟩
abbrev S_ : Shape := ⟨0, ![]⟩
abbrev S32 : Shape := ⟨1, ![32]⟩
abbrev S32x1 : Shape := ⟨2, ![32, 1]⟩
abbrev S32x10000 : Shape := ⟨2, ![32, 10000]⟩
abbrev S32x64x1 : Shape := ⟨3, ![32, 64, 1]⟩
abbrev S32x64x2 : Shape := ⟨3, ![32, 64, 2]⟩
abbrev S1 : Shape := ⟨1, ![1]⟩

abbrev nBuf : Space → Nat
  | .hbm => 58
  | .vmem => 0
  | .smem => 0
  | _ => 0

abbrev bufTy : (tb : Table) → Fin (tcTables nBuf tb) → BufTy
  | .hbm, ⟨0, _⟩ => ⟨S512x32x10000, .f32⟩
  | .hbm, ⟨1, _⟩ => ⟨S32x64, .i32⟩
  | .hbm, ⟨2, _⟩ => ⟨S32x512x10000, .f32⟩
  | .hbm, ⟨3, _⟩ => ⟨S_, .f32⟩
  | .hbm, ⟨4, _⟩ => ⟨S32x512x10000, .f32⟩
  | .hbm, ⟨5, _⟩ => ⟨S32x512x10000, .f32⟩
  | .hbm, ⟨6, _⟩ => ⟨S_, .i32⟩
  | .hbm, ⟨7, _⟩ => ⟨S32x64, .i32⟩
  | .hbm, ⟨8, _⟩ => ⟨S32x64, .i1⟩
  | .hbm, ⟨9, _⟩ => ⟨S32, .i32⟩
  | .hbm, ⟨10, _⟩ => ⟨S32x1, .i32⟩
  | .hbm, ⟨11, _⟩ => ⟨S_, .f32⟩
  | .hbm, ⟨12, _⟩ => ⟨S32x10000, .f32⟩
  | .hbm, ⟨13, _⟩ => ⟨S32x64, .f32⟩
  | .hbm, ⟨14, _⟩ => ⟨S_, .i32⟩
  | .hbm, ⟨15, _⟩ => ⟨S32x1, .i32⟩
  | .hbm, ⟨16, _⟩ => ⟨S32x1, .i1⟩
  | .hbm, ⟨17, _⟩ => ⟨S_, .i32⟩
  | .hbm, ⟨18, _⟩ => ⟨S32x1, .i32⟩
  | .hbm, ⟨19, _⟩ => ⟨S32x1, .i32⟩
  | .hbm, ⟨20, _⟩ => ⟨S32x1, .i32⟩
  | .hbm, ⟨21, _⟩ => ⟨S_, .i32⟩
  | .hbm, ⟨22, _⟩ => ⟨S32x64, .i32⟩
  | .hbm, ⟨23, _⟩ => ⟨S32x64, .i1⟩
  | .hbm, ⟨24, _⟩ => ⟨S_, .i32⟩
  | .hbm, ⟨25, _⟩ => ⟨S32x64, .i32⟩
  | .hbm, ⟨26, _⟩ => ⟨S32x64, .i32⟩
  | .hbm, ⟨27, _⟩ => ⟨S32x64, .i32⟩
  | .hbm, ⟨28, _⟩ => ⟨S32x64, .i32⟩
  | .hbm, ⟨29, _⟩ => ⟨S32x64x1, .i32⟩
  | .hbm, ⟨30, _⟩ => ⟨S32x64x1, .i32⟩
  | .hbm, ⟨31, _⟩ => ⟨S32x64x2, .i32⟩
  | .hbm, ⟨32, _⟩ => ⟨S32x10000, .f32⟩
  | .hbm, ⟨33, _⟩ => ⟨S32x64, .i32⟩
  | .hbm, ⟨34, _⟩ => ⟨S_, .i32⟩
  | .hbm, ⟨35, _⟩ => ⟨S32, .i32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .i32⟩
  | .hbm, ⟨41, _⟩ => ⟨S1, .i32⟩
  | .hbm, ⟨42, _⟩ => ⟨S32x10000, .f32⟩
  | .hbm, ⟨43, _⟩ => ⟨S_, .f32⟩
  | .hbm, ⟨44, _⟩ => ⟨S32x10000, .f32⟩
  | .hbm, ⟨45, _⟩ => ⟨S_, .f32⟩
  | .hbm, ⟨46, _⟩ => ⟨S32x10000, .f32⟩
  | .hbm, ⟨47, _⟩ => ⟨S32x10000, .f32⟩
  | .hbm, ⟨48, _⟩ => ⟨S_, .f32⟩
  | .hbm, ⟨49, _⟩ => ⟨S32x10000, .f32⟩
  | .hbm, ⟨50, _⟩ => ⟨S32x10000, .f32⟩
  | .hbm, ⟨51, _⟩ => ⟨S32x10000, .f32⟩
  | .hbm, ⟨52, _⟩ => ⟨S32x10000, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S512x32x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_5 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_c_7 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_cst_9 : Ref sig .tc := ⟨.hbm, 45, rfl⟩
abbrev main_v32 : Ref sig .tc := ⟨.hbm, 46, rfl⟩
abbrev main_v33 : Ref sig .tc := ⟨.hbm, 47, rfl⟩
abbrev main_cst_10 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_11 : Ref sig .tc := ⟨.hbm, 53, rfl⟩
abbrev main_v38 : Ref sig .tc := ⟨.hbm, 54, rfl⟩
abbrev main_v39 : Ref sig .tc := ⟨.hbm, 55, rfl⟩
abbrev main_cst_12 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  transposes_S512x32x10000_S32x512x10000_1_0_2 : S512x32x10000.Transposes [1, 0, 2] S32x512x10000
  bcast_S_S32x512x10000 : S_.BroadcastsInDim S32x512x10000 (![] : Fin 0 → Fin S32x512x10000.rank)
  bcast_S_S32x64 : S_.BroadcastsInDim S32x64 (![] : Fin 0 → Fin S32x64.rank)
  bcast_S32_S32x1_0 : S32.BroadcastsInDim S32x1 (![0] : Fin 1 → Fin S32x1.rank)
  bcast_S_S32x10000 : S_.BroadcastsInDim S32x10000 (![] : Fin 0 → Fin S32x10000.rank)
  bcast_S_S32x1 : S_.BroadcastsInDim S32x1 (![] : Fin 0 → Fin S32x1.rank)
  bcast_S32x1_S32x64_0_1 : S32x1.BroadcastsInDim S32x64 (![0, 1] : Fin 2 → Fin S32x64.rank)
  bcast_S32x64_S32x64x1_0_1 : S32x64.BroadcastsInDim S32x64x1 (![0, 1] : Fin 2 → Fin S32x64x1.rank)
  concatenates_S32x64x1_S32x64x1_S32x64x2_d2 : Shape.Concatenates [S32x64x1, S32x64x1] S32x64x2 2
  natLt_1_32 : 1 < 32
  reducesTo_S32x64_S32_d1 : S32x64.ReducesTo [1] S32
  h_S_ : 0 < S_.numel
  bcast_S_S32 : S_.BroadcastsInDim S32 (![] : Fin 0 → Fin S32.rank)
  bcast_S_S1 : S_.BroadcastsInDim S1 (![] : Fin 0 → Fin S1.rank)
  reducesTo_S32x512x10000_S32x10000_d1 : S32x512x10000.ReducesTo [1] S32x10000
  reducesTo_S32x10000_S_d0_1 : S32x10000.ReducesTo [0, 1] S_
  scatter_S32x10000_S32x64x2_S32x64_n_01_01_2_wf : ScatterDims.WF S32x10000 S32x64x2 S32x64 [] [0, 1] [0, 1] 2
  scatter_S32x10000_S1_S32_0_1_1_0_wf : ScatterDims.WF S32x10000 S1 S32 [0] [1] [1] 0

variable [Facts₀]

def scatter_S32x10000_S32x64x2_S32x64_n_01_01_2 : ScatterDims S32x10000 S32x64x2 S32x64 where
  updateWindowDims := []
  insertedWindowDims := [0, 1]
  scatterDimsToOperandDims := [0, 1]
  indexVectorDim := 2
  wf := scatter_S32x10000_S32x64x2_S32x64_n_01_01_2_wf
def scatter_S32x10000_S1_S32_0_1_1_0 : ScatterDims S32x10000 S1 S32 where
  updateWindowDims := [0]
  insertedWindowDims := [1]
  scatterDimsToOperandDims := [1]
  indexVectorDim := 0
  wf := scatter_S32x10000_S1_S32_0_1_1_0_wf

class Facts : Prop extends Facts₀ where

variable [Facts]
-- ==== Proof.Pieces.lean ====
/-
  What one run of the kernel body leaves behind, as values, in each of its three control cases.

  The body keeps a 32×10000 accumulator in scratch memory. At every grid point it adds to the accumulator the sum of
  the point's eight time steps of x; at the first point it zeroes the accumulator first; at the last point it also
  computes the loss from the finished accumulator and the label histogram and stores it in the 1×1 output block.
  Read back through whole-buffer loads and stores at zero offsets, each case leaves exactly the body's pure arithmetic
  of what it loaded: the accumulate step of the zero block (first point) or of the accumulator found (other points),
  and at the last point the loss step of the accumulator just stored.
-/
import proofs.«172135_j15479062135011_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point: the accumulator found, plus the point's eight time steps summed. -/
theorem acc_B (c : Dev nD) (i : grid0.Coords) (a1 : Memref sig .tc .vmem S8x32x10000 .f32) (h1 : a1.IsWhole) (a2 : Memref sig .tc .vmem S32x10000 .f32) (h2 : a2.IsWhole) (a3 : Memref sig .tc .vmem S1x1 .f32) (h3 : a3.IsWhole) (a4 : Memref sig .tc .vmem S32x10000 .f32) (h4 : a4.IsWhole) (hc0 : ¬cond0_0 i) (hc1 : ¬cond0_1 i)
    (x0 : Vec F S8x32x10000 .f32) (x1 : Vec F S32x10000 .f32) (xs0 : Vec F S32x10000 .f32) :
    sout0_B_0 c i a1 h1 a2 h2 a3 h3 a4 h4 hc0 hc1 x0 x1 xs0 = k0_pay2 xs0 x0 := by
  unfold sout0_B_0
  rw [View.read_writes_eq_canon _ _ _ (scover0_B_0 c i a1 h1 a2 h2 a3 h3 a4 h4 hc0 hc1 x0 x1 xs0)]
  unfold kernelRun0_B
  dsimp only
  rw [View.canon_unit_zero (S := S32x10000) hz2]
  simp only [View.readAt_eq_ld, h4.read_unread, h1.read_unread, View.ld_unit_zero (S := S32x10000) hz2,
    View.ld_unit_zero (S := S8x32x10000) hz3]

/-- The last point leaves the same in the accumulator. -/
theorem acc_C (c : Dev nD) (i : grid0.Coords) (a1 : Memref sig .tc .vmem S8x32x10000 .f32) (h1 : a1.IsWhole) (a2 : Memref sig .tc .vmem S32x10000 .f32) (h2 : a2.IsWhole) (a3 : Memref sig .tc .vmem S1x1 .f32) (h3 : a3.IsWhole) (a4 : Memref sig .tc .vmem S32x10000 .f32) (h4 : a4.IsWhole) (hc0 : ¬cond0_0 i) (hc1 : cond0_1 i)
    (x0 : Vec F S8x32x10000 .f32) (x1 : Vec F S32x10000 .f32) (xs0 : Vec F S32x10000 .f32) :
    sout0_C_0 c i a1 h1 a2 h2 a3 h3 a4 h4 hc0 hc1 x0 x1 xs0 = k0_pay2 xs0 x0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero (S := S32x10000) hz2]
  simp only [View.readAt_eq_ld, h4.read_unread, h1.read_unread, View.ld_unit_zero (S := S32x10000) hz2,
    View.ld_unit_zero (S := S8x32x10000) hz3]

/-- The first point: the zero block stored, read back, and the point's eight time steps summed onto it. -/
theorem acc_A (c : Dev nD) (i : grid0.Coords) (a1 : Memref sig .tc .vmem S8x32x10000 .f32) (h1 : a1.IsWhole) (a2 : Memref sig .tc .vmem S32x10000 .f32) (h2 : a2.IsWhole) (a3 : Memref sig .tc .vmem S1x1 .f32) (h3 : a3.IsWhole) (a4 : Memref sig .tc .vmem S32x10000 .f32) (h4 : a4.IsWhole) (hc0 : cond0_0 i) (hc1 : ¬cond0_1 i)
    (x0 : Vec F S8x32x10000 .f32) (x1 : Vec F S32x10000 .f32) :
    sout0_A_0 c i a1 h1 a2 h2 a3 h3 a4 h4 hc0 hc1 x0 x1 = k0_pay2 k0_pay1 x0 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S32x10000) hz2, View.readCov_unit_zero (S := S32x10000) _ hz2]
  simp only [View.readAt_eq_ld, h1.read_unread, View.ld_unit_zero (S := S8x32x10000) hz3]

/-- The last point's output block: the loss step of the accumulator it has just stored and of the histogram block. -/
theorem out_C (c : Dev nD) (i : grid0.Coords) (a1 : Memref sig .tc .vmem S8x32x10000 .f32) (h1 : a1.IsWhole) (a2 : Memref sig .tc .vmem S32x10000 .f32) (h2 : a2.IsWhole) (a3 : Memref sig .tc .vmem S1x1 .f32) (h3 : a3.IsWhole) (a4 : Memref sig .tc .vmem S32x10000 .f32) (h4 : a4.IsWhole) (hc0 : ¬cond0_0 i) (hc1 : cond0_1 i)
    (x0 : Vec F S8x32x10000 .f32) (x1 : Vec F S32x10000 .f32) (xs0 : Vec F S32x10000 .f32) :
    out0_C_2 c i a1 h1 a2 h2 a3 h3 a4 h4 hc0 hc1 x0 x1 xs0 = k0_pay3 (k0_pay2 xs0 x0) x1 := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero (S := S1x1) hz2, View.readCov_unit_zero (S := S32x10000) _ hz2]
  simp only [View.readAt_eq_ld, h4.read_unread, h1.read_unread, h2.read_unread, View.ld_unit_zero (S := S32x10000) hz2,
    View.ld_unit_zero (S := S8x32x10000) hz3]

/-! ## The same, at a grid point

  Stated at a VARIABLE point t with what is known of its position as a hypothesis. -/

section AtPoint

variable (m : (ℓ : Loc nD τ sig) → Buf (Elt F) ℓ)

/-- The first point leaves the accumulate step of the zero block. -/
theorem acc_first (c : Dev nD) (t : Fin cfg0.N) (h0 : t.val % 64 = 0) :
    (outsAt0 m c t.val t.isLt).2 = k0_pay2 k0_pay1 (iblk m c 0 t) := by
  have hN : t.val < 64 := lt_of_lt_of_eq t.isLt (show cfg0.N = 64 from N_0)
  have h1 : ¬t.val % 64 = 63 := by omega
  rw [outsAt0_A m c t h0 h1]
  dsimp only
  exact acc_A c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- Every later point leaves the accumulate step of what the point before left. -/
theorem acc_next (c : Dev nD) (t : Fin cfg0.N) (h0 : ¬t.val % 64 = 0) :
    (outsAt0 m c t.val t.isLt).2
      = k0_pay2 (outsAt0 m c (t.val - 1) (Nat.lt_of_le_of_lt (Nat.sub_le _ _) t.isLt)).2 (iblk m c 0 t) := by
  by_cases h1 : t.val % 64 = 63
  · rw [outsAt0_C m c t h0 h1]
    dsimp only
    exact acc_C c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    dsimp only
    exact acc_B c (grid0.coords t) (ms0_0 t) (hs0_0 t) (ms0_1 t) (hs0_1 t) (ms0_2 t) (hs0_2 t) scM0_0
      (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- The last point's output block is the loss step of the accumulator it leaves and of the histogram block. -/
theorem out_at (c : Dev nD) (t : Fin cfg0.N) (h0 : ¬t.val % 64 = 0) (h1 : t.val % 64 = 63) :
    (outsAt0 m c t.val t.isLt).1 = k0_pay3 (outsAt0 m c t.val t.isLt).2 (iblk m c 1 t) := by
  rw [acc_next m c t h0, outsAt0_C m c t h0 h1]
  dsimp only
  exact out_C c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

end AtPoint

end Cert.KernelIdeal.Pieces

end
-- ==== Proof.Spec.lean ====
/-
  The algebra that joins the two programs, over the extended reals, with no program in sight.

  Both programs end in  (… Σ over the 32·10000 positions j of  (C j / 512) · log(mean j) …) / 32, where C is the label
  histogram and mean j the average over the 512 time steps of x at position j, shifted by the constant ε:
  one program adds ε to every entry before averaging,  (0 + Σₖ (xₖ + ε)) / 512,  the other averages first,
  (Σₖ xₖ) / 512 + ε;  one negates the total,  −(0 + Σⱼ tⱼ),  the other negates every term,  Σⱼ (0 − tⱼ).
  On real data the two means agree because 512·ε / 512 = ε exactly (the divisor IS the real 512). Negation passes
  through the sum because no term is +∞: the weight C j / 512 is a nonnegative real and log of a real is a real or −∞,
  so every term is a real or −∞, and on such a family −(Σ t) = Σ (−t).
-/
import Idealize.ShloMosaic.PureOps.Ideal

noncomputable section

namespace Cert.Spec

open Idealize.ShloMosaic
open scoped BigOperators

/-- The divisor 512.0, the shift 1e-10 (as the f32 nearest to it) and the final divisor 32.0, as the programs spell them. -/
abbrev w512 : EReal := Ideal.ofBits .f32 0x44000000#32
abbrev eps : EReal := Ideal.ofBits .f32 0x2EDBE6FF#32
abbrev w32 : EReal := Ideal.ofBits .f32 0x42000000#32

/-- The pattern of 512.0 denotes the real 512. -/
theorem w512_eq : w512 = ((512 : ℝ) : EReal) := by
  simp [w512, Ideal.ofBits, Ideal.ieee, -EReal.coe_mul] <;> norm_num

/-- The pattern of the shift denotes a real (a dyadic rational near 1e-10; its value is never needed). -/
theorem eps_real : ∃ e : ℝ, eps = (e : EReal) := by
  refine ⟨(14411519 : ℝ) * (2 : ℝ) ^ (-57 : Int), ?_⟩
  simp [eps, Ideal.ofBits, Ideal.ieee, -EReal.coe_mul] <;> norm_num

/-- The coercion of a finite sum of reals. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The two means: shifting every entry by ε and then averaging 512 of them is averaging and then shifting. -/
theorem mean_shift (X : Fin 512 → EReal) (hX : ∀ k, ∃ r : ℝ, X k = (r : EReal)) :
    Ideal.div ((0 : EReal) + ∑ k : Fin 512, (X k + eps)) w512 = Ideal.div (∑ k : Fin 512, X k) w512 + eps := by
  choose f hf using hX
  obtain ⟨e, he⟩ := eps_real
  rw [he, w512_eq, Ideal.div_coe (by norm_num : (512 : ℝ) ≠ 0), Ideal.div_coe (by norm_num : (512 : ℝ) ≠ 0), zero_add]
  simp only [hf, ← EReal.coe_add]
  rw [coe_sum, coe_sum, ← EReal.coe_mul, ← EReal.coe_mul, ← EReal.coe_add]
  congr 1
  rw [Finset.sum_add_distrib, Finset.sum_const, Finset.card_univ, Fintype.card_fin]
  simp only [nsmul_eq_mul]
  push_cast
  ring

/-- The mean of reals, shifted, is a real. -/
theorem mean_real (X : Fin 512 → EReal) (hX : ∀ k, ∃ r : ℝ, X k = (r : EReal)) :
    ∃ r : ℝ, Ideal.div (∑ k : Fin 512, X k) w512 + eps = (r : EReal) := by
  choose f hf using hX
  obtain ⟨e, he⟩ := eps_real
  refine ⟨(∑ k, f k) * (1 / 512) + e, ?_⟩
  rw [he, w512_eq, Ideal.div_coe (by norm_num : (512 : ℝ) ≠ 0)]
  simp only [hf]
  rw [coe_sum, ← EReal.coe_mul, ← EReal.coe_add]

/-- A term of the loss is never +∞: a nonnegative real weight times the log of a real. -/
theorem term_ne_top (c r : ℝ) (hc : 0 ≤ c) : Ideal.div (c : EReal) w512 * Ideal.log (r : EReal) ≠ ⊤ := by
  rw [w512_eq, Ideal.div_coe (by norm_num : (512 : ℝ) ≠ 0), ← EReal.coe_mul, Ideal.log_coe]
  have hw : 0 ≤ c * (1 / 512) := by positivity
  split_ifs with h
  · rcases hw.eq_or_lt with h0 | h0
    · rw [← h0]; simp
    · rw [EReal.coe_mul_bot_of_pos h0]; exact bot_ne_top
  · rw [← EReal.coe_mul]; exact EReal.coe_ne_top _

/-- A finite sum of terms none of which is +∞ is not +∞. -/
theorem sum_ne_top {ι : Type*} (s : Finset ι) (g : ι → EReal) (hg : ∀ i ∈ s, g i ≠ ⊤) : ∑ i ∈ s, g i ≠ ⊤ := by
  classical
  induction s using Finset.induction_on with
  | empty => simp
  | insert a s ha ih =>
    rw [Finset.sum_insert ha]
    exact EReal.add_ne_top (hg a (Finset.mem_insert_self a s)) (ih fun i hi => hg i (Finset.mem_insert_of_mem hi))

/-- Negating every term of such a family negates its sum. -/
theorem sum_zero_sub {ι : Type*} (s : Finset ι) (g : ι → EReal) (hg : ∀ i ∈ s, g i ≠ ⊤) :
    ∑ i ∈ s, ((0 : EReal) - g i) = -(∑ i ∈ s, g i) := by
  classical
  induction s using Finset.induction_on with
  | empty => simp
  | insert a s ha ih =>
    have hs : ∑ i ∈ s, g i ≠ ⊤ := sum_ne_top s g fun i hi => hg i (Finset.mem_insert_of_mem hi)
    have hga : g a ≠ ⊤ := hg a (Finset.mem_insert_self a s)
    rw [Finset.sum_insert ha, Finset.sum_insert ha, ih fun i hi => hg i (Finset.mem_insert_of_mem hi),
      EReal.neg_add (Or.inr hs) (Or.inl hga), zero_sub, sub_eq_add_neg]

/-- THE BRIDGE, over any finite family of positions: on real data and a nonnegative real histogram, the sum of the
    negated terms with the mean shifted after averaging is the negated total (from zero) of the terms with every entry
    shifted before averaging. -/
theorem bridge {ι : Type*} [Fintype ι] (X : ι → Fin 512 → EReal) (C : ι → EReal)
    (hX : ∀ j k, ∃ r : ℝ, X j k = (r : EReal)) (hC : ∀ j, ∃ c : ℝ, 0 ≤ c ∧ C j = (c : EReal)) :
    ∑ j, ((0 : EReal) - Ideal.div (C j) w512 * Ideal.log (Ideal.div (∑ k : Fin 512, X j k) w512 + eps))
      = -((0 : EReal) + ∑ j, Ideal.div (C j) w512 * Ideal.log (Ideal.div ((0 : EReal) + ∑ k : Fin 512, (X j k + eps)) w512)) := by
  rw [zero_add]
  simp only [mean_shift _ (hX _)]
  refine sum_zero_sub Finset.univ _ fun j _ => ?_
  obtain ⟨c, hc, hCj⟩ := hC j
  obtain ⟨r, hr⟩ := mean_real (X j) (hX j)
  rw [hCj, hr]
  exact term_ne_top c r hc

end Cert.Spec

end
-- ==== Proof.Payloads.lean ====
/-
  The kernel body's three pure steps, read at a position, over the extended reals.

  The zero block is 0 everywhere. The accumulate step adds to the accumulator, at each position (b, v), the sum over
  the block's eight time steps of the block at (k, b, v): a reduction over the leading axis is that plain sum. The loss
  step forms, at each position, the negated product of the histogram entry divided by 512 with the log of the
  accumulator entry divided by 512 and shifted by ε, sums it over the 10000 columns of each row, and sums the 32 row
  totals: two nested plain sums.
-/
import proofs.«172135_j15479062135011_1_alg».proof.Proof.Gen.KernelIdeal.Skeleton
import proofs.«172135_j15479062135011_1_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.Payloads

open Cert.KernelIdeal Cert.KernelIdeal.Gen Cert.Spec

/-- The zero block is zero everywhere. -/
theorem pay1_apply (j : S32x10000.Idx) : k0_pay1 (F := Ideal) j = 0 := by
  unfold k0_pay1
  refine (congrFun (shapeCast_self _ _) j).trans ?_
  exact Ideal.ofBits_zero_f32

/-- The accumulate step at position (b, v): the accumulator there plus the sum of the block's eight time steps there. -/
theorem pay2_apply (acc : Vec Ideal S32x10000 .f32) (blk : Vec Ideal S8x32x10000 .f32) (b : Fin 32) (v : Fin 10000) :
    k0_pay2 (F := Ideal) acc blk (ix2 b v) = acc (ix2 b v) + ∑ k : Fin 8, blk (ix3 k b v) := by
  unfold k0_pay2
  refine (congrFun (shapeCast_self _ _) (ix2 b v)).trans ?_
  refine congrArg (acc (ix2 b v) + ·) ?_
  refine (Ideal.multiReduction_add_single (φ := .f32) blk _ reduces_S8x32x10000_S32x10000 _ _ (ix2 b v)).trans ?_
  refine Finset.sum_congr rfl fun k _ => congrArg blk ?_
  funext a
  apply Fin.ext
  match a with
  | ⟨0, _⟩ => rfl
  | ⟨1, _⟩ => rfl
  | ⟨2, _⟩ => rfl

/-- The loss step: the sum over rows b and columns v of the negated term
    (hist (b,v) / 512) · log (acc (b,v) / 512 + ε). -/
theorem pay3_apply (acc hist : Vec Ideal S32x10000 .f32) (i : S1x1.Idx) :
    k0_pay3 (F := Ideal) acc hist i
      = ∑ b : Fin 32, ∑ v : Fin 10000,
          ((0 : EReal) - Ideal.div (hist (ix2 b v)) w512 * Ideal.log (Ideal.div (acc (ix2 b v)) w512 + eps)) := by
  unfold k0_pay3
  simp only [shapeCast_self]
  refine (shapeCast_apply _ _ i (ix1 (0 : Fin 1)) ?_).trans ?_
  · have h0 : (i 0).val < 1 := (i 0).isLt
    have h1 : (i 1).val < 1 := (i 1).isLt
    rw [Shape.rowMajor_val_one, Shape.rowMajor_val_two]
    show (0 : ℕ) = (i 0).val * 1 + (i 1).val
    omega
  refine (Ideal.multiReduction_add_single (φ := .f32) _ _ reduces_S32x1_S1 _ _ (ix1 (0 : Fin 1))).trans ?_
  refine Finset.sum_congr rfl fun b _ => ?_
  refine (shapeCast_apply _ _ (reduces_S32x1_S1.lift (ix1 (0 : Fin 1)) b) (ix1 (b : Fin 32)) ?_).trans ?_
  · rw [Shape.rowMajor_val_one, Shape.rowMajor_val_two]
    show b.val = b.val * 1 + 0
    omega
  refine (Ideal.multiReduction_add_single (φ := .f32) _ _ reduces_S32x10000_S32 _ _ (ix1 (b : Fin 32))).trans ?_
  refine Finset.sum_congr rfl fun v _ => ?_
  have e : reduces_S32x10000_S32.lift (ix1 (b : Fin 32)) v = ix2 (b : Fin 32) (v : Fin 10000) := by
    funext a
    apply Fin.ext
    match a with
    | ⟨0, _⟩ => rfl
    | ⟨1, _⟩ => rfl
  rw [e]
  show Ideal.ofBits .f32 0x00000000#32 - Ideal.div (hist (ix2 b v)) w512 * Ideal.log (Ideal.div (acc (ix2 b v)) w512 + eps) = _
  rw [Ideal.ofBits_zero_f32]

end Cert.KernelIdeal.Payloads

end
-- ==== Proof.LibBlockedSum.lean ====
/-
  A sum of a·b terms taken b at a time.

  In any commutative additive monoid — the extended reals included, where no cancellation or distributivity is
  available but addition is still associative and commutative — the sum of `f 0, …, f (a·b − 1)` equals the sum over
  the a consecutive stretches of length b of each stretch's own sum. This is the whole algebra behind a matrix product
  whose contraction axis is cut into blocks that are accumulated one after the other.
-/
import Idealize.ShloMosaic.Lib.ValueIdx

namespace Cert.Lib.BlockedSum

open scoped BigOperators

/-- Over ranges: the stretches `b·s, …, b·s + b − 1` for `s < a` exhaust `0, …, a·b − 1`. -/
theorem sum_range_blocks {M : Type*} [AddCommMonoid M] (f : ℕ → M) (b : ℕ) :
    ∀ a : ℕ, ∑ s ∈ Finset.range a, ∑ k ∈ Finset.range b, f (b * s + k) = ∑ k ∈ Finset.range (a * b), f k
  | 0 => by simp
  | a + 1 => by
    rw [Finset.sum_range_succ, sum_range_blocks f b a, Nat.succ_mul, Finset.sum_range_add, Nat.mul_comm b a]

/-- The same with the inner and the total sum over `Fin`: the form in which a block's inner product and the whole
    inner product are read off the two programs. -/
theorem sum_fin_blocks {M : Type*} [AddCommMonoid M] (f : ℕ → M) (a b : ℕ) :
    ∑ s ∈ Finset.range a, ∑ k : Fin b, f (b * s + k.val) = ∑ k : Fin (a * b), f k.val := by
  rw [Fin.sum_univ_eq_sum_range f (a * b), ← sum_range_blocks f b a]
  exact Finset.sum_congr rfl fun s _ => Fin.sum_univ_eq_sum_range (fun k => f (b * s + k)) b

end Cert.Lib.BlockedSum
-- ==== Proof.Accum.lean ====
/-
  The accumulator, point by point.

  Window 0's block at grid point t is the eight time steps 8t, …, 8t+7 of x (all 32 rows, all 10000 columns), so what
  the kernel carries in its scratch accumulator after point n is, at every position (b, v), the sum of x over the time
  steps 0, …, 8n+7 — by induction on the point: the first point starts from the zero block, every later point adds its
  eight steps to what the point before left. After the last point (n = 63) that is the sum over all 512 time steps.
-/
import proofs.«172135_j15479062135011_1_alg».proof.Proof.Pieces
import proofs.«172135_j15479062135011_1_alg».proof.Proof.Payloads
import proofs.«172135_j15479062135011_1_alg».proof.Proof.LibBlockedSum

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Pieces Cert.KernelIdeal.Payloads

variable (m : (ℓ : Loc nD τ sig) → Buf (Elt Ideal) ℓ)

/-- The argument x on core c. -/
abbrev xArr (c : Dev nD) : S512x32x10000.Idx → EReal := m ((c : Thread nD τ).loc main_arg0)

/-- Time step q of x at position (b, v) — zero past the last step, so that it is a function of a natural number. -/
def xrow (c : Dev nD) (b : Fin 32) (v : Fin 10000) (q : ℕ) : EReal :=
  if h : q < 512 then xArr m c (ix3 ⟨q, h⟩ b v) else 0

/-- Window 0 steps along the time axis only: its block index at point t is (t, 0, 0). -/
theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- So its block at point t, read at (k, b, v), is time step 8t + k of x at (b, v). -/
theorem blk_apply (c : Dev nD) (t : Fin cfg0.N) (k : Fin 8) (b : Fin 32) (v : Fin 10000) :
    (iblk m c 0 t : Vec Ideal S8x32x10000 .f32) (ix3 k b v) = xrow m c b v (8 * t.val + k.val) := by
  have hN : t.val < 64 := lt_of_lt_of_eq t.isLt (show cfg0.N = 64 from N_0)
  have hq : 8 * t.val + k.val < 512 := by have := k.isLt; omega
  unfold xrow
  rw [dif_pos hq]
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t 0 * 8 + 1 * k.val = 8 * t.val + k.val; rw [(idx0 t).1]; omega
  | ⟨1, _⟩ => show win0_0.index t 1 * 32 + 1 * b.val = b.val; rw [(idx0 t).2.1]; omega
  | ⟨2, _⟩ => show win0_0.index t 2 * 10000 + 1 * v.val = v.val; rw [(idx0 t).2.2]; omega

/-- The carried accumulator after the point at position n, at (b, v): the sum of the time steps of the points 0, …, n. -/
theorem acc_eq (c : Dev nD) (b : Fin 32) (v : Fin 10000) : ∀ (n : ℕ) (t : Fin cfg0.N), t.val = n →
    (outsAt0 m c t.val t.isLt).2 (ix2 b v) = ∑ s ∈ Finset.range (n + 1), ∑ k : Fin 8, xrow m c b v (8 * s + k.val) := by
  intro n
  induction n with
  | zero =>
    intro t ht
    have h0 : t.val % 64 = 0 := by rw [ht]
    rw [acc_first m c t h0]
    refine (pay2_apply (k0_pay1 (F := Ideal)) (iblk m c 0 t : Vec Ideal S8x32x10000 .f32) b v).trans ?_
    rw [pay1_apply, zero_add, Finset.sum_range_one]
    refine Finset.sum_congr rfl fun k _ => ?_
    rw [blk_apply m c t k b v, ht]
  | succ n ih =>
    intro t ht
    have hN : t.val < 64 := lt_of_lt_of_eq t.isLt (show cfg0.N = 64 from N_0)
    have h0 : ¬t.val % 64 = 0 := by omega
    have hlt : t.val - 1 < cfg0.N := Nat.lt_of_le_of_lt (Nat.sub_le _ _) t.isLt
    rw [acc_next m c t h0]
    refine (pay2_apply (outsAt0 m c (t.val - 1) hlt).2 (iblk m c 0 t : Vec Ideal S8x32x10000 .f32) b v).trans ?_
    have ih' := ih ⟨t.val - 1, hlt⟩ (by show t.val - 1 = n; omega)
    rw [Finset.sum_range_succ _ (n + 1)]
    refine congrArg₂ (· + ·) ih' ?_
    refine Finset.sum_congr rfl fun k _ => ?_
    rw [blk_apply m c t k b v, ht]

/-- After the last point: the sum over all 512 time steps. -/
theorem acc_last (c : Dev nD) (b : Fin 32) (v : Fin 10000) (t : Fin cfg0.N) (ht : t.val = 63) :
    (outsAt0 m c t.val t.isLt).2 (ix2 b v) = ∑ q : Fin 512, xArr m c (ix3 q b v) := by
  rw [acc_eq m c b v 63 t ht]
  refine (Cert.Lib.BlockedSum.sum_fin_blocks (xrow m c b v) 64 8).trans ?_
  show ∑ q : Fin 512, xrow m c b v q.val = _
  refine Finset.sum_congr rfl fun q _ => ?_
  unfold xrow
  exact dif_pos q.isLt

end Cert.KernelIdeal.Accum

end
-- ==== Proof.KValue.lean ====
/-
  The kernel's result array, and what the host lines after the call make of it.

  The histogram operand's one block is the whole histogram, and the last grid point's output block is the loss step of
  the finished accumulator and that histogram: at its one entry, the sum over all positions (b, v) of the negated term
  (hist (b,v) / 512) · log ((Σ over the 512 time steps of x at (b,v)) / 512 + ε). Only the last point writes the
  output block back, and that block is the 1×1 result array, so the array ends holding this total.
-/
import proofs.«172135_j15479062135011_1_alg».proof.Proof.Accum
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Pieces Cert.KernelIdeal.Payloads Cert.KernelIdeal.Accum Cert.Spec

variable (m : (ℓ : Loc nD τ sig) → Buf (Elt Ideal) ℓ) (ρ : Dev nD → PrngReg)

/-- The label histogram as the region finds it: what the host lines before the call left in the call's second operand. -/
abbrev hist (c : Dev nD) : S32x10000.Idx → EReal := V m c main_v27

/-- Window 1 never moves: its one block is the whole histogram. -/
theorem idx1 : ∀ t : Fin cfg0.N, win0_1.index t 0 = 0 ∧ win0_1.index t 1 = 0 :=
  (by decide +kernel : ∀ t : Fin grid0.N, win0_1.index t 0 = 0 ∧ win0_1.index t 1 = 0)

theorem hblk_apply (c : Dev nD) (t : Fin cfg0.N) (b : Fin 32) (v : Fin 10000) :
    (iblk m c 1 t : Vec Ideal S32x10000 .f32) (ix2 b v) = hist m c (ix2 b v) := by
  unfold iblk
  rw [View.read_apply]
  show V m c main_v27 _ = _
  refine congrArg (V m c main_v27) ?_
  funext a
  apply Fin.ext
  match a with
  | ⟨0, _⟩ => show win0_1.index t 0 * 32 + 1 * b.val = b.val; rw [(idx1 t).1]; omega
  | ⟨1, _⟩ => show win0_1.index t 1 * 10000 + 1 * v.val = v.val; rw [(idx1 t).2]; omega

/-- The kernel's total: over all positions, the negated term of the histogram entry and the mean of x over time. -/
def lossSum (x : S512x32x10000.Idx → EReal) (C : S32x10000.Idx → EReal) : EReal :=
  ∑ b : Fin 32, ∑ v : Fin 10000,
    ((0 : EReal) - Ideal.div (C (ix2 b v)) w512 * Ideal.log (Ideal.div (∑ q : Fin 512, x (ix3 q b v)) w512 + eps))

/-- The output block after the last point: the kernel's total, at its one entry. -/
theorem out_last (c : Dev nD) (t : Fin cfg0.N) (ht : t.val = 63) :
    (outsAt0 m c t.val t.isLt).1 = fun _ => lossSum (xArr m c) (hist m c) := by
  have h0 : ¬t.val % 64 = 0 := by omega
  have h1 : t.val % 64 = 63 := by omega
  funext i
  rw [out_at m c t h0 h1]
  refine (pay3_apply (outsAt0 m c t.val t.isLt).2 (iblk m c 1 t : Vec Ideal S32x10000 .f32) i).trans ?_
  unfold lossSum
  refine Finset.sum_congr rfl fun b _ => Finset.sum_congr rfl fun v _ => ?_
  rw [acc_last m c b v t ht, hblk_apply m c t b v]

/-- The kernel's result array after the region. -/
abbrev result (c : Dev nD) : Buf (Elt Ideal) ((c : Thread nD τ).loc main_v28) := fun _ => lossSum (xArr m c) (hist m c)

/-- The one write-back, at the last point, writes it. -/
theorem flushed_eq (c : Dev nD) (t : Fin cfg0.N) (hf : (cfg0.win 2).flush t = true) :
    (dats m 0 c).flushed 2 t = ((cfg0.win 2).blk t).view.read (Elt Ideal) (result m c) := by
  have hN : t.val < 64 := lt_of_lt_of_eq t.isLt (show cfg0.N = 64 from N_0)
  have h63 : t.val = 63 := by have := (flush0_2 t).mp hf; omega
  show (cfg0.win 2).cut (grid0.coords t) ((dats m 0 c).after 2 t) = _
  rw [after0_2, out_last m c t h63]
  funext y
  rw [View.read_apply]
  rfl

/-- The last point exists, and its block is the result array's one entry. -/
theorem last_point : ∃ t : Fin cfg0.N, (cfg0.win 2).flush t = true
    ∧ win0_2.index t 0 * win0_2.size 0 = 0 ∧ win0_2.xsize (grid0.coords t) 0 = 1
    ∧ win0_2.index t 1 * win0_2.size 1 = 0 ∧ win0_2.xsize (grid0.coords t) 1 = 1 :=
  (by decide +kernel : ∃ t : Fin grid0.N, win0_2.flush t = true
    ∧ win0_2.index t 0 * win0_2.size 0 = 0 ∧ win0_2.xsize (grid0.coords t) 0 = 1
    ∧ win0_2.index t 1 * win0_2.size 1 = 0 ∧ win0_2.xsize (grid0.coords t) 1 = 1)

/-- So the result array ends holding the total: the last point's block covers its one entry. -/
theorem final (c : Dev nD) : (dats m 0 c).arrAt 2 cfg0.N = result m c :=
  (dats m 0 c).arrAt_eq_of_cover 2 (result m c) (flushed_eq m c) fun i => by
    obtain ⟨t, hf, e0, s0, e1, s1⟩ := last_point
    refine ⟨t, hf, ?_⟩
    show i ∈ ((View.whole main_v28).slice (win0_2.rect t)).set
    rw [View.set_slice_whole, Rect.mem_set_unit]
    intro a
    have h0 : (i 0 : Nat) < 1 := (i 0).isLt
    have h1 : (i 1 : Nat) < 1 := (i 1).isLt
    match a with
    | ⟨0, _⟩ => show win0_2.index t 0 * win0_2.size 0 ≤ (i 0 : Nat) ∧ (i 0 : Nat) < win0_2.index t 0 * win0_2.size 0 + win0_2.xsize (grid0.coords t) 0
                rw [e0, s0]; omega
    | ⟨1, _⟩ => show win0_2.index t 1 * win0_2.size 1 ≤ (i 1 : Nat) ∧ (i 1 : Nat) < win0_2.index t 1 * win0_2.size 1 + win0_2.xsize (grid0.coords t) 1
                rw [e1, s1]; omega

end Cert.KernelIdeal.KValue

end
-- ==== Proof.KRun.lean ====
/-
  The kernel's run, read to the end.

  After the call the host reshapes the 1×1 result to a scalar and divides it by 32, so the program's result is the
  kernel's total divided by 32. The histogram operand the call finds is what the host lines before it computed from the
  label array: the same operations, in the same order, as the reference's histogram stage, so the two are one term.
-/
import proofs.«172135_j15479062135011_1_alg».proof.Proof.KValue
import proofs.«172135_j15479062135011_1_alg».proof.Proof.Gen.ReferenceIdeal.Read
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KRun

open Cert.KernelIdeal Cert.KernelIdeal.Gen Cert.KernelIdeal.Accum Cert.KernelIdeal.KValue Cert.Spec

variable (m : (ℓ : Loc nD τ sig) → Buf (Elt Ideal) ℓ) (ρ : Dev nD → PrngReg)

/-- The host lines after the call: the 1×1 result reshaped to a scalar and divided by 32. -/
theorem tail_eq (c : Dev nD) :
    Pipeline.afterTail₀ cfgs (dats m) 0 (V0 m) [hostOps1] c main_v30 = fun _ => Ideal.div (lossSum (xArr m c) (hist m c)) w32 := by
  have hw : Pipeline.withArrays (cfgs 0).spec c (V0 m c) (fun w => (dats m 0 c).arrAt w (cfgs 0).N) (Proc.devRef .tc main_v28)
      = result m c := (Pipeline.withArrays_arr spec0 launch0.win.arr_inj c _ _ 2).trans (final m c)
  unfold Pipeline.afterTail₀
  show StableHlo.after hostOps1 _ (Proc.devRef .tc main_v30) = _
  after_results
  rw [hw]
  funext i
  rfl

set_option maxHeartbeats 2000000 in
/-- The histogram the region finds is the reference's histogram stage of the same label array. -/
theorem hist_eq (c : Dev nD) :
    hist m c = Cert.ReferenceIdeal.Read.val_main_v30 (F := Ideal) (m ((c : Thread nD τ).loc main_arg1)) := by
  show StableHlo.after hostOps0 (fun b => m (c, b)) (Proc.devRef .tc main_v27) = _
  after_results_simp
  rfl

/-- The kernel's run, read: the result at the total divided by 32, the arguments unchanged. -/
theorem run : θ_run defs (onTc (τ := τ) (main (F := Ideal))) ⟨m, fun _ => 0, ρ⟩ fun r => ∀ c : Dev nD,
      r.2.mem ((c.tc : Thread nD τ).loc main_v30) = (fun _ => Ideal.div (lossSum (xArr m c) (hist m c)) w32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v30 (Pipeline.mem_restRefs_of main_v30 (by decide) (by decide))).trans (tail_eq m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.KRun

end
-- ==== Proof.Bridge.lean ====
/-
  The kernel's total is the reference's.

  The kernel's total is written as a double sum over rows and columns; the same sum over the 32·10000 positions taken
  as one index set is the left side of the algebraic bridge, whose right side is the reference's negated total.
-/
import proofs.«172135_j15479062135011_1_alg».proof.Proof.KValue

noncomputable section

open Idealize.ShloMosaic Idealize.ShloMosaic.ValueIdx

namespace Cert.KernelIdeal.Bridge

open Cert.KernelIdeal Cert.KernelIdeal.KValue Cert.Spec

-- a position's coordinates j 0, j 1 are typed by the shape's own coordinate family, which is Fin 32, Fin 10000 only
-- after unfolding the shape; the option lets the unifier see that in the types of the terms it compares
set_option backward.isDefEq.respectTransparency.types false in
/-- On real data and a nonnegative real histogram the kernel's total is the reference's: the negated sum, from zero,
    over all positions of the term with every entry of x shifted by ε before averaging. -/
theorem loss_eq (x : S512x32x10000.Idx → EReal) (C : S32x10000.Idx → EReal)
    (hx : ∀ i, ∃ r : ℝ, x i = (r : EReal)) (hC : ∀ j, ∃ c : ℝ, 0 ≤ c ∧ C j = (c : EReal)) :
    lossSum x C = -((0 : EReal) + ∑ j : S32x10000.Idx, Ideal.div (C j) w512
        * Ideal.log (Ideal.div ((0 : EReal) + ∑ k : Fin 512, (x (ix3 k (j 0 : Fin 32) (j 1 : Fin 10000)) + eps)) w512)) := by
  have hb := Cert.Spec.bridge (ι := S32x10000.Idx) (fun j k => x (ix3 k (j 0 : Fin 32) (j 1 : Fin 10000))) C (fun j k => hx _) hC
  refine Eq.trans ?_ hb
  unfold lossSum
  exact (ValueIdx.sum_idx2 (fun j : S32x10000.Idx => (0 : EReal) - Ideal.div (C j) w512
    * Ideal.log (Ideal.div (∑ q : Fin 512, x (ix3 q (j 0 : Fin 32) (j 1 : Fin 10000))) w512 + eps))).symm

end Cert.KernelIdeal.Bridge

end
-- ==== Proof.LibScatterNonneg.lean ====
/-
  Reusable lemmas: a float scatter at the exact (extended-real) reading keeps its entries nonnegative reals.

  * `NonnegReal e`: the extended real `e` is a real number `r` with `0 ≤ r`; closed under `0`, `+` and finite sums.
  * `scatterAdd_nonnegReal`: the accumulating scatter (`Host.scatterAdd`) of an operand and updates that are all
    nonnegative reals is a nonnegative real at every index, whatever the dimension numbers and the scatter indices:
    each entry is the operand's entry plus a finite sum of update entries.
  * `scatter_induction`: for the folding scatter (`Host.scatter`) with any body `f`, a property that holds of every
    operand entry and every update entry, and that `f` preserves, holds of every entry of the result.
  * `scatter_set_mem`: with the body that returns the update (`fun _ b => b`), every entry of the result is an entry of
    the operand or an entry of the updates.
-/
import Idealize.ShloMosaic.PureOps.Ideal

open Idealize.ShloMosaic

noncomputable section

namespace Cert.LibScatterNonneg

/-- The extended real `e` is a nonnegative real number. -/
def NonnegReal (e : EReal) : Prop := ∃ r : ℝ, 0 ≤ r ∧ e = ((r : ℝ) : EReal)

theorem NonnegReal.zero : NonnegReal 0 := ⟨0, le_refl _, by simp⟩

theorem NonnegReal.coe {r : ℝ} (h : 0 ≤ r) : NonnegReal ((r : ℝ) : EReal) := ⟨r, h, rfl⟩

theorem NonnegReal.natCast (n : Nat) : NonnegReal (((n : ℝ) : ℝ) : EReal) := ⟨(n : ℝ), Nat.cast_nonneg n, rfl⟩

theorem NonnegReal.add {a b : EReal} (ha : NonnegReal a) (hb : NonnegReal b) : NonnegReal (a + b) := by
  obtain ⟨r, hr, rfl⟩ := ha
  obtain ⟨t, ht, rfl⟩ := hb
  exact ⟨r + t, add_nonneg hr ht, (EReal.coe_add r t).symm⟩

theorem NonnegReal.sum {ι : Type} (S : Finset ι) (g : ι → EReal) (h : ∀ j ∈ S, NonnegReal (g j)) :
    NonnegReal (∑ j ∈ S, g j) := by
  classical
  induction S using Finset.induction_on with
  | empty => simpa using NonnegReal.zero
  | insert a S ha ih =>
    rw [Finset.sum_insert ha]
    exact (h a (Finset.mem_insert_self a S)).add (ih fun j hj => h j (Finset.mem_insert_of_mem hj))

/-- The accumulating float scatter of nonnegative reals into nonnegative reals is a nonnegative real at every
    index: the entry is the operand's plus the sum of the updates landing on it. -/
theorem scatterAdd_nonnegReal {φ : FTy} {s si u : Shape} {w : Nat} (d : ScatterDims s si u) (x : FVec Ideal s φ)
    (idx : IVec si w) (upd : FVec Ideal u φ) (hx : ∀ i, NonnegReal (x i)) (hu : ∀ j, NonnegReal (upd j))
    (i : s.Idx) : NonnegReal (Host.scatterAdd d x idx upd i) := by
  show NonnegReal (x i + ∑ j ∈ Finset.univ.filter (fun j => d.resultIdx? j idx = some i), upd j)
  exact (hx i).add (NonnegReal.sum _ _ fun j _ => hu j)

/-- A property of every operand entry and every update entry that the body preserves holds of every entry of
    the folding scatter's result. -/
theorem scatter_induction {α : Type} {s si u : Shape} {w : Nat} (d : ScatterDims s si u) (f : α → α → α)
    (P : α → Prop) (x : s.Idx → α) (idx : IVec si w) (upd : u.Idx → α) (hx : ∀ i, P (x i)) (hu : ∀ j, P (upd j))
    (hf : ∀ a b, P a → P b → P (f a b)) (i : s.Idx) : P (Host.scatter d f x idx upd i) := by
  unfold Host.scatter
  generalize List.finRange u.numel = L
  revert i
  induction L generalizing x with
  | nil => intro i; exact hx i
  | cons n L ih =>
    rw [List.foldl_cons]
    apply ih
    intro i
    cases hres : d.resultIdx? (u.rowMajor.symm n) idx with
    | none => exact hx i
    | some k =>
      show P (if i = k then f (x k) (upd (u.rowMajor.symm n)) else x i)
      split
      · exact hf _ _ (hx k) (hu _)
      · exact hx i

/-- With the body that returns the update, every entry of the folding scatter's result is an entry of the operand
    or an entry of the updates. -/
theorem scatter_set_mem {α : Type} {s si u : Shape} {w : Nat} (d : ScatterDims s si u) (x : s.Idx → α)
    (idx : IVec si w) (upd : u.Idx → α) (i : s.Idx) :
    (∃ i', Host.scatter d (fun _ b => b) x idx upd i = x i') ∨ (∃ j, Host.scatter d (fun _ b => b) x idx upd i = upd j) :=
  scatter_induction d (fun _ b => b) (fun a => (∃ i', a = x i') ∨ (∃ j, a = upd j)) x idx upd
    (fun i => Or.inl ⟨i, rfl⟩) (fun j => Or.inr ⟨j, rfl⟩) (fun _ _ _ hb => hb) i

end Cert.LibScatterNonneg
-- ==== Proof.Counts.lean ====
/-
  The label histogram of the reference program is a nonnegative real at every index.

  The histogram is built in two steps from the 32x64 integer label array. First an accumulating scatter adds, into an
  array of zeros, the mask word "label is nonzero" (read as the real 0 or 1) at the position each label names: whatever
  set of updates lands on an entry, the entry is zero plus a finite sum of zeros and ones. Then column 0 of every row is
  overwritten by `512 - n`, where `n` is the row's number of nonzero labels: a wrapping 32-bit sum of 64 words each 0 or
  1, so `0 ≤ n ≤ 64` and the written value is a real number between 448 and 512. Every entry of the result is either an
  entry left by the first step or one of the written values.
-/
import proofs.«172135_j15479062135011_1_alg».proof.Proof.Gen.ReferenceIdeal.Read
import Idealize.ShloMosaic.PureOps.Ideal
import proofs.«172135_j15479062135011_1_alg».proof.Proof.LibScatterNonneg

open Idealize.ShloMosaic

noncomputable section

namespace Cert.Counts

open Cert.ReferenceIdeal Cert.ReferenceIdeal.Read Cert.LibScatterNonneg

/-- A one-bit word is `0` or `1` as a natural number. -/
theorem toNat_le_one (b : BitVec 1) : b.toNat ≤ 1 := by
  have := b.isLt
  omega

/-- The f32 pattern `0x44000000` is the real number 512. -/
theorem ofBits_512_f32 : Ideal.ofBits .f32 0x44000000#32 = ((512 : ℝ) : EReal) := by
  simp [Ideal.ofBits, Ideal.ieee, -EReal.coe_mul]; norm_num

/-- The scatter-add's operand is zero everywhere. -/
theorem v7_nonneg (i : S32x10000.Idx) : NonnegReal (val_main_v7 (F := Ideal) i) := by
  rw [val_main_v7_apply, val_main_cst_0_apply, Ideal.ofBits_def, Ideal.ofBits_zero_f32]
  exact NonnegReal.zero

/-- Every update of the scatter-add is the one-bit mask word read as a natural number: `0` or `1`. -/
theorem v8_nonneg (lab : (⟨S32x64, .i32⟩ : BufTy).Contents (Elt Ideal)) (j : S32x64.Idx) :
    NonnegReal (val_main_v8 (F := Ideal) lab j) := by
  rw [val_main_v8_apply]
  exact NonnegReal.natCast (val_main_v4 (F := Ideal) lab j).toNat

/-- The histogram before the overwrite of column 0: zero plus a finite sum of zeros and ones. -/
theorem v23_nonneg (lab : (⟨S32x64, .i32⟩ : BufTy).Contents (Elt Ideal)) (i : S32x10000.Idx) :
    NonnegReal (val_main_v23 (F := Ideal) lab i) :=
  scatterAdd_nonnegReal _ _ _ _ v7_nonneg (v8_nonneg lab) i

/-- A wrapping sum, from zero, of words each `0` or `1` is at most the number of words: reducing modulo `2 ^ 32`
    never increases a natural number, so the bound needs no overflow side condition. -/
theorem fold_addi_toNat_le {ι : Type} (S : Finset ι) (g : ι → BitVec 32) (hg : ∀ k, (g k).toNat ≤ 1) :
    (S.fold IntOp.addi 0#32 g).toNat ≤ S.card := by
  classical
  induction S using Finset.induction_on with
  | empty => simp
  | insert a S ha ih =>
    rw [Finset.fold_insert ha, Finset.card_insert_of_notMem ha]
    show (g a + S.fold IntOp.addi 0#32 g).toNat ≤ S.card + 1
    rw [BitVec.toNat_add]
    have h1 := hg a
    have h2 := Nat.mod_le ((g a).toNat + (S.fold IntOp.addi 0#32 g).toNat) (2 ^ 32)
    omega

/-- The number of nonzero labels of a row, as a 32-bit word, is at most 64. -/
theorem v25_toNat_le (lab : (⟨S32x64, .i32⟩ : BufTy).Contents (Elt Ideal)) (b : S32.Idx) :
    (val_main_v25 (F := Ideal) lab b).toNat ≤ 64 := by
  have h : S32x64.Reduces [1] S32 := by decide
  unfold val_main_v25
  rw [Host.reduce_eq_fold_single IntOp.addi _ _ _ h]
  have hb := fold_addi_toNat_le (Finset.univ : Finset (Fin (S32x64.size 1)))
    (val_main_v24 (F := Ideal) lab ∘ h.lift b) (fun k => by
      show (val_main_v24 (F := Ideal) lab (h.lift b k)).toNat ≤ 1
      rw [val_main_v24_apply, BitVec.toNat_setWidth]
      exact le_trans (Nat.mod_le _ _) (toNat_le_one _))
  rw [val_main_c_5_apply]
  exact le_trans hb (by rw [Finset.card_univ, Fintype.card_fin]; decide)

/-- The value written into column 0: `512 - n` with `n` the row's count of nonzero labels, `0 ≤ n ≤ 64`. -/
theorem v28_nonneg (lab : (⟨S32x64, .i32⟩ : BufTy).Contents (Elt Ideal)) (b : S32.Idx) :
    NonnegReal (val_main_v28 (F := Ideal) lab b) := by
  have hn := v25_toNat_le lab b
  have hInt : (val_main_v25 (F := Ideal) lab b).toInt = ((val_main_v25 (F := Ideal) lab b).toNat : Int) :=
    BitVec.toInt_eq_toNat_of_lt (by omega)
  rw [val_main_v28_apply, val_main_v27_apply, val_main_cst_6_apply, val_main_v26_apply, Ideal.ofBits_def, ofBits_512_f32]
  show NonnegReal (((512 : ℝ) : EReal) - ((((val_main_v25 (F := Ideal) lab b).toInt : ℝ)) : EReal))
  rw [hInt, ← EReal.coe_sub]
  refine NonnegReal.coe ?_
  have : (((val_main_v25 (F := Ideal) lab b).toNat : Int) : ℝ) ≤ 64 := by exact_mod_cast hn
  linarith

/-- The label histogram: the accumulated counts with column 0 of every row overwritten by `512 - n`. Every entry is
    an entry of the accumulated counts or one of the written values, hence a nonnegative real. -/
theorem v30_nonneg (lab : (⟨S32x64, .i32⟩ : BufTy).Contents (Elt Ideal)) (i : S32x10000.Idx) :
    NonnegReal (val_main_v30 (F := Ideal) lab i) := by
  unfold val_main_v30
  exact scatter_induction _ (fun _ b => b) NonnegReal _ _ _ (v23_nonneg lab) (v28_nonneg lab) (fun _ _ _ hb => hb) i

/-- The label histogram is a nonnegative real at every index. -/
theorem counts_real_nonneg (lab : (⟨Cert.ReferenceIdeal.S32x64, .i32⟩ : BufTy).Contents (Elt Ideal))
    (i : Cert.ReferenceIdeal.S32x10000.Idx) :
    ∃ r : ℝ, 0 ≤ r ∧ Cert.ReferenceIdeal.Read.val_main_v30 (F := Ideal) lab i = ((r : ℝ) : EReal) :=
  v30_nonneg lab i

end Cert.Counts
-- ==== Proof.RefRead.lean ====
/-
  The reference's result read as one formula.

  The reference transposes x to [32, 512, 10000], adds the constant 1e-10, sums over the middle axis (512 terms),
  divides by 512, takes the logarithm, multiplies by the label histogram divided by 512, sums over all
  32 x 10000 positions, negates, and divides by 32. The label histogram (the result of a scatter, which is not read
  at an index) stays the opaque term `val_main_v30 lab`.
-/
import proofs.«172135_j15479062135011_1_alg».proof.Proof.Gen.ReferenceIdeal.Read
import Idealize.ShloMosaic.Lib.ValueIdx
import Idealize.ShloMosaic.PureOps.Ideal.Laws

noncomputable section

namespace Cert.RefRead

open Cert.ReferenceIdeal Cert.ReferenceIdeal.Gen Cert.ReferenceIdeal.Read Idealize.ShloMosaic

/-- The transposed operand read inside the sum over the middle axis is x at (k, row, column). -/
theorem idx_x (j : S32x10000.Idx) (k : Fin 512) :
    idx_main_v0 (idx_main_v31 j k) = ValueIdx.ix3 k (j 0 : Fin 32) (j 1 : Fin 10000) :=
  funext fun a => Fin.ext (by match a with | ⟨0, _⟩ => rfl | ⟨1, _⟩ => rfl | ⟨2, _⟩ => rfl)

/-- The reference's scalar result as one formula of x and the label histogram. -/
theorem ref_value (x : (⟨S512x32x10000, .f32⟩ : BufTy).Contents (Elt Ideal))
    (lab : (⟨S32x64, .i32⟩ : BufTy).Contents (Elt Ideal)) (i : S_.Idx) :
    val_main_v40 (F := Ideal) x lab i
      = Ideal.div (-((0 : EReal) + ∑ j : S32x10000.Idx,
            Ideal.div (val_main_v30 (F := Ideal) lab j) (Ideal.ofBits .f32 0x44000000#32)
              * Ideal.log (Ideal.div ((0 : EReal) + ∑ k : Fin 512,
                  (x (ValueIdx.ix3 k (j 0 : Fin 32) (j 1 : Fin 10000)) + Ideal.ofBits .f32 0x2EDBE6FF#32))
                (Ideal.ofBits .f32 0x44000000#32))))
          (Ideal.ofBits .f32 0x42000000#32) := by
  rw [val_main_v40_apply, val_main_v39_apply, val_main_v38_apply, val_main_cst_12_apply, val_main_cst_11_apply]
  simp only [val_main_v37_apply, val_main_v35_apply, val_main_v36_apply, val_main_v33_apply, val_main_v34_apply,
    val_main_cst_10_apply, val_main_v31_apply, val_main_v32_apply, val_main_cst_9_apply, val_main_cst_8_apply,
    val_main_v2_apply, val_main_v0_apply, val_main_v1_apply, val_main_cst_apply, idx_x,
    Ideal.hostDivf_def, Ideal.hostNegf_def, Ideal.negf_def, Ideal.mulf_def, Ideal.addf_def, Ideal.hostUnary_log_def,
    Ideal.ofBits_def, Ideal.ofBits_zero_f32]
  rfl

end Cert.RefRead

end
-- ==== Proof.LibFiniteReal.lean ====
/-
  One element of an "every entry is finite" test, read on the extended reals.

  The test compares the absolute value `max x (-x)` with the f32 pattern of `+∞`, strictly. That pattern denotes the
  top element; the absolute value of `-∞` is `+∞`; so the test passes exactly at the reals. Also: the rank-0 shape
  has a single index (what reading a reduction over all axes at "its one result" needs).
-/
import Idealize.ShloMosaic.PureOps.Ideal.Laws

noncomputable section

namespace Cert.Lib.FiniteReal

open Idealize.ShloMosaic

/-- The f32 pattern `0x7F800000` denotes `+∞`. -/
theorem ofBits_inf_f32 : Ideal.ofBits .f32 0x7F800000#32 = ⊤ := by simp [Ideal.ofBits, Ideal.ieee]

/-- An extended real whose absolute value is strictly below the pattern of `+∞` is a real. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => exact absurd h (by simp [Ideal.cmp])
  | coe r => exact ⟨r, rfl⟩
  | top => exact absurd h (by simp [Ideal.cmp])

/-- Conversely every real passes the test. -/
theorem abs_lt_inf_of_real (r : ℝ) :
    Ideal.cmp .olt (max (r : EReal) (-(r : EReal))) (Ideal.ofBits .f32 0x7F800000#32) = 1#1 := by
  rw [ofBits_inf_f32]
  have h : max (r : EReal) (-(r : EReal)) < ⊤ := max_lt (EReal.coe_lt_top r) (by rw [← EReal.coe_neg]; exact EReal.coe_lt_top _)
  simp [Ideal.cmp, h]

/-- The rank-0 shape has exactly one index. -/
theorem subsingleton_idx0 : Subsingleton (⟨0, ![]⟩ : Shape).Idx := ⟨fun _ _ => funext fun d => d.elim0⟩

end Cert.Lib.FiniteReal

end
-- ==== Proof.FiniteX.lean ====
/-
  Under the precondition every entry of x is a real number.

  The precondition compares the absolute value of every entry of x with the f32 pattern of +∞, strictly, and
  takes the conjunction of all the comparisons (a reduction by `and` over all three axes, from the constant 1).
  If that conjunction is 1 then each comparison is 1, and an extended real whose absolute value is strictly below
  +∞ is neither +∞ nor -∞: it is a real. The labels play no part.
-/
import proofs.«172135_j15479062135011_1_alg».proof.Pre_finite_inputs
import proofs.«172135_j15479062135011_1_alg».proof.Proof.LibFiniteReal
import Idealize.ShloMosaic.Lib.ReduceAll
import Idealize.ShloMosaic.Lib.ValueIdx
import Idealize.ShloMosaic.Lib.IdealHost
import Idealize.ShloMosaic.PureOps.Ideal.Laws

noncomputable section

namespace Cert.FiniteX

open Idealize.ShloMosaic

/-- If the finiteness test of the two arguments comes out 1, every entry of the float argument is a real. -/
theorem real_of_pre [Cert.Pre_finite_inputs.Facts]
    (x : (⟨Cert.Pre_finite_inputs.S512x32x10000, .f32⟩ : BufTy).Contents (Elt Ideal))
    (lab : (⟨Cert.Pre_finite_inputs.S32x64, .i32⟩ : BufTy).Contents (Elt Ideal))
    (h : Cert.Pre_finite_inputs.fn (F := Ideal) x lab = fun _ => 1#1)
    (i : Cert.Pre_finite_inputs.S512x32x10000.Idx) : ∃ r : ℝ, x i = ((r : ℝ) : EReal) := by
  -- the test's one result is 1
  have h0 := congrFun h ValueIdx.ix0
  dsimp only [Cert.Pre_finite_inputs.fn] at h0
  -- so every comparison under the conjunction is 1
  haveI : Subsingleton Cert.Pre_finite_inputs.S_.Idx := Cert.Lib.FiniteReal.subsingleton_idx0
  have hi := Host.reduce_andi_all _ _ _ _ _ h0 i
  -- the comparison at i is |x i| < +∞
  rw [ValueIdx.cmpf_apply, ValueIdx.broadcastInDim_scalar_apply] at hi
  exact Cert.Lib.FiniteReal.real_of_abs_lt_inf (x i) hi

end Cert.FiniteX

end
-- ==== Proof.lean ====
/-
  Kernel and reference compute one number: a label-weighted cross-entropy of the time-averaged scores.

  With x the 512×32×10000 score array, C the 32×10000 label histogram both programs build on the host by the same
  lines, and ε the f32 nearest 1e-10, both end in

      ( … Σ over the 32·10000 positions j of (C j / 512) · log(mean j) … ) / 32 .

  The kernel streams x through 64 grid points of 8 time steps, keeps Σₜ x in a scratch accumulator (zeroed at the first
  point), and at the last point forms mean j = (Σₜ x) / 512 + ε, negates every term, sums the columns, then the rows;
  the host divides by 32. The reference adds ε to every entry, sums over time from zero, divides by 512, takes the
  total of the terms from zero, negates it and divides by 32. On the extended reals the two agree when x is finite:
  the 64 blocks of 8 steps are the 512 steps (addition is associative and commutative with no side condition);
  (0 + Σₖ (xₖ + ε)) / 512 = (Σₖ xₖ) / 512 + ε over the reals because 512·ε / 512 = ε exactly; and Σⱼ (0 − tⱼ) = −(0 + Σⱼ tⱼ)
  because no term is +∞ — the weight C j / 512 is a nonnegative real (the histogram counts labels, and its first
  column is 512 minus a count of at most 64) and the log of a real is a real or −∞. Finiteness of x is the precondition;
  the label array may be anything.

  The three frames are the generated ones (the reference's is its generated run with the result dropped); the ideal
  pass rewrote nothing, so the kernel's idealization is its own text read on the extended reals.
-/
import proofs.«172135_j15479062135011_1_alg».proof.Defs
import proofs.«172135_j15479062135011_1_alg».proof.Proof.Gen.Kernel
import proofs.«172135_j15479062135011_1_alg».proof.Proof.Gen.Kernel.Skeleton
import proofs.«172135_j15479062135011_1_alg».proof.Proof.Gen.Kernel.Launch
import proofs.«172135_j15479062135011_1_alg».proof.Proof.Gen.Kernel.Points
import proofs.«172135_j15479062135011_1_alg».proof.Proof.Gen.Kernel.Frame
import proofs.«172135_j15479062135011_1_alg».proof.Proof.Gen.KernelIdeal
import proofs.«172135_j15479062135011_1_alg».proof.Proof.Gen.KernelIdeal.Skeleton
import proofs.«172135_j15479062135011_1_alg».proof.Proof.Gen.KernelIdeal.Launch
import proofs.«172135_j15479062135011_1_alg».proof.Proof.Gen.KernelIdeal.Points
import proofs.«172135_j15479062135011_1_alg».proof.Proof.Gen.KernelIdeal.Frame
import proofs.«172135_j15479062135011_1_alg».proof.Proof.Gen.ReferenceIdeal
import proofs.«172135_j15479062135011_1_alg».proof.Proof.Gen.Pre_finite_inputs
import proofs.«172135_j15479062135011_1_alg».proof.Proof.Gen.ReferenceIdeal.Run
import proofs.«172135_j15479062135011_1_alg».proof.Proof.Gen.ReferenceIdeal.Read
import proofs.«172135_j15479062135011_1_alg».proof.Proof.KRun
import proofs.«172135_j15479062135011_1_alg».proof.Proof.Bridge
import proofs.«172135_j15479062135011_1_alg».proof.Proof.Counts
import proofs.«172135_j15479062135011_1_alg».proof.Proof.RefRead
import proofs.«172135_j15479062135011_1_alg».proof.Proof.FiniteX
import Idealize.ShloMosaic.Adequacy
import Idealize.ShloMosaic.Init

noncomputable section

namespace Cert.Proof

open Idealize.ShloMosaic Idealize.SL.Sem Idealize.ShloMosaic.TcCoe

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end at the kernel's total divided by 32: the kernel by its run read to the end, the reference by its
    generated run read as one formula and joined to the kernel's total on finite x and the nonnegative histogram. -/
theorem algebraic : Cert.algebraic_KernelIdeal_ReferenceIdeal := by
  intro m ρ m' ρ' hpre hagree
  refine ⟨fun c => fun _ => Ideal.div (Cert.KernelIdeal.KValue.lossSum (Cert.KernelIdeal.Accum.xArr m c)
    (Cert.KernelIdeal.KValue.hist m c)) Cert.Spec.w32, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2]
  funext i
  rw [Cert.RefRead.ref_value, ← Cert.KernelIdeal.KRun.hist_eq m c]
  refine congrArg (Ideal.div · Cert.Spec.w32) ?_
  refine (Cert.KernelIdeal.Bridge.loss_eq (Cert.KernelIdeal.Accum.xArr m c) (Cert.KernelIdeal.KValue.hist m c)
    (fun j => Cert.FiniteX.real_of_pre _ _ (hpre c) j) (fun j => ?_)).symm
  rw [Cert.KernelIdeal.KRun.hist_eq m c]
  exact Cert.Counts.counts_real_nonneg _ j

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
